-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S600000 : Shape := ⟨1, ![600000]⟩
abbrev S1x128 : Shape := ⟨2, ![1, 128]⟩
abbrev S128 : Shape := ⟨1, ![128]⟩
abbrev S256x128 : Shape := ⟨2, ![256, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S1000000x128 .f32) (main_arg1 : FVec F S600000 .f32) (main_arg2 : FVec F S1x128 .f32) (main_arg3 : FVec F S128 .f32) (main_arg4 : FVec F S256x128 .f32) (main_arg5 : FVec F S128 .f32) (main_arg6 : IVec S1000000 1) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S600000 .f32 := Host.absf main_arg1
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S1000000x128 : Shape := ⟨2, ![1000000, 128]⟩
abbrev S600000 : Shape := ⟨1, ![600000]⟩
abbrev S1x128 : Shape := ⟨2, ![1, 128]⟩
abbrev S128 : Shape := ⟨1, ![128]⟩
abbrev S256x128 : Shape := ⟨2, ![256, 128]⟩
abbrev S1000000 : Shape := ⟨1, ![1000000]⟩
abbrev S600000x1 : Shape := ⟨2, ![600000, 1]⟩
abbrev S128x128 : Shape := ⟨2, ![128, 128]⟩
abbrev S6000x128 : Shape := ⟨2, ![6000, 128]⟩
abbrev S6000x1 : Shape := ⟨2, ![6000, 1]⟩

abbrev nBuf : Space → Nat
  | .hbm => 13
  | .vmem => 11
  | .smem => 0
  | _ => 0

abbrev bufTy : (tb : Table) → Fin (tcTables nBuf tb) → BufTy
  | .hbm, ⟨0, _⟩ => ⟨S1000000x128, .f32⟩
  | .hbm, ⟨1, _⟩ => ⟨S600000, .f32⟩
  | .hbm, ⟨2, _⟩ => ⟨S1x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1000000, .i1⟩
  | .hbm, ⟨7, _⟩ => ⟨S600000x1, .f32⟩
  | .hbm, ⟨8, _⟩ => ⟨S128x128, .f32⟩
  | .hbm, ⟨9, _⟩ => ⟨S128x128, .bf16⟩
  | .hbm, ⟨10, _⟩ => ⟨S128x128, .f32⟩
  | .hbm, ⟨11, _⟩ => ⟨S128x128, .bf16⟩
  | .hbm, ⟨12, _⟩ => ⟨S1000000x128, .f32⟩
  | .local _ .vmem, ⟨0, _⟩ => ⟨S6000x128, .f32⟩
  | .local _ .vmem, ⟨1, _⟩ => ⟨S6000x128, .f32⟩
  | .local _ .vmem, ⟨2, _⟩ => ⟨S6000x1, .f32⟩
  | .local _ .vmem, ⟨3, _⟩ => ⟨S6000x1, .f32⟩
  | .local _ .vmem, ⟨4, _⟩ => ⟨S1x128, .f32⟩
  | .local _ .vmem, ⟨5, _⟩ => ⟨S128, .f32⟩
  | .local _ .vmem, ⟨6, _⟩ => ⟨S128x128, .bf16⟩
  | .local _ .vmem, ⟨7, _⟩ => ⟨S128x128, .bf16⟩
  | .local _ .vmem, ⟨8, _⟩ => ⟨S128, .f32⟩
  | .local _ .vmem, ⟨9, _⟩ => ⟨S6000x128, .f32⟩
  | .local _ .vmem, ⟨10, _⟩ => ⟨S6000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S600000_S600000x1 : S600000.ShapeCasts S600000x1
  slices_S256x128_S128x128_0_0 : S256x128.Slices ![0, 0] S128x128
  bitsLt_bf16_f32 : FTy.bits .bf16 < FTy.bits .f32
  slices_S256x128_S128x128_128_0 : S256x128.Slices ![128, 0] S128x128
  inb_S6000x128_S6000x128_0_0 : ∀ a, (![0, 0] : Fin 2 → Nat) a + S6000x128.size a ≤ S6000x128.size a
  h_S6000x128 : 0 < S6000x128.numel
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  inb_S1x128_S1x128_0_0 : ∀ a, (![0, 0] : Fin 2 → Nat) a + S1x128.size a ≤ S1x128.size a
  h_S1x128 : 0 < S1x128.numel
  broadcasts_S6000x1_S6000x128 : S6000x1.Broadcasts S6000x128
  broadcasts_S1x128_S6000x128 : S1x128.Broadcasts S6000x128
  inb_S128_S128_0 : ∀ a, (![0] : Fin 1 → Nat) a + S128.size a ≤ S128.size a
  h_S128 : 0 < S128.numel
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S6000x128_S128x128_S6000x128_1_0_0_1_n_n_wf : DotDims.WF S6000x128 S128x128 S6000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S6000x128.size a < S1000000x128.size a
  hwx0_0 : ∀ i : grid0.Coords, EltTy.bits .f32 = 32 ∨ (Rect.unit (s := S1000000x128) (fun a => cc0_transform_0 i a * S6000x128.size a) (fun a => (Pipeline.Clip.of (cc0_transform_0 i a) (S6000x128.size a) (S1000000x128.size a)).extent (S6000x128.size a)) fun a => Pipeline.Clip.inb (Pipeline.Clip.ok_of (hstart0_0 i a))).WholeWords (EltTy.packing .f32)
  hwxs0_0 : ∀ i : grid0.Coords, EltTy.bits .f32 = 32 ∨ (Rect.unit (s := S6000x128) (fun _ => 0) (fun a => (Pipeline.Clip.of (cc0_transform_0 i a) (S6000x128.size a) (S1000000x128.size a)).extent (S6000x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x1.size a ≤ S600000x1.size a
  hwx0_1 : ∀ i : grid0.Coords, EltTy.bits .f32 = 32 ∨ (Rect.block (s := S600000x1) S6000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S6000x128.size a < S1000000x128.size a
  hwx0_7 : ∀ i : grid0.Coords, EltTy.bits .f32 = 32 ∨ (Rect.unit (s := S1000000x128) (fun a => cc0_transform_7 i a * S6000x128.size a) (fun a => (Pipeline.Clip.of (cc0_transform_7 i a) (S6000x128.size a) (S1000000x128.size a)).extent (S6000x128.size a)) fun a => Pipeline.Clip.inb (Pipeline.Clip.ok_of (hstart0_7 i a))).WholeWords (EltTy.packing .f32)
  hwxs0_7 : ∀ i : grid0.Coords, EltTy.bits .f32 = 32 ∨ (Rect.unit (s := S6000x128) (fun _ => 0) (fun a => (Pipeline.Clip.of (cc0_transform_7 i a) (S6000x128.size a) (S1000000x128.size a)).extent (S6000x128.size a)) fun a => (Nat.zero_add _).trans_le (Pipeline.Clip.extent_le (Pipeline.Clip.ok_of (hstart0_7 i a)))).WholeWords (EltTy.packing .f32)

variable [Facts₀]

def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf

abbrev win0_0 : Pipeline.Window sig grid0 :=
  Pipeline.Window.ofSpecClip (Memref.whole main_arg0) S6000x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S6000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v5) S6000x128.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where
  halias0_7 : Pipeline.Aliased win0 0 7

variable [Facts]
-- ==== ReferenceIdeal.lean ====
abbrev S1000000x128 : Shape := ⟨2, ![1000000, 128]⟩
abbrev S600000 : Shape := ⟨1, ![600000]⟩
abbrev S1x128 : Shape := ⟨2, ![1, 128]⟩
abbrev S128 : Shape := ⟨1, ![128]⟩
abbrev S256x128 : Shape := ⟨2, ![256, 128]⟩
abbrev S1000000 : Shape := ⟨1, ![1000000]⟩
abbrev S600000x128 : Shape := ⟨2, ![600000, 128]⟩
abbrev S600000x1 : Shape := ⟨2, ![600000, 1]⟩
abbrev S600000x256 : Shape := ⟨2, ![600000, 256]⟩
abbrev S_ : Shape := ⟨0, ![]⟩
abbrev S1 : Shape := ⟨1, ![1]⟩

abbrev nBuf : Space → Nat
  | .hbm => 39
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S600000, .f32⟩
  | .hbm, ⟨2, _⟩ => ⟨S1x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1000000, .i1⟩
  | .hbm, ⟨7, _⟩ => ⟨S600000x128, .f32⟩
  | .hbm, ⟨8, _⟩ => ⟨S600000x1, .f32⟩
  | .hbm, ⟨9, _⟩ => ⟨S128, .f32⟩
  | .hbm, ⟨10, _⟩ => ⟨S1x128, .f32⟩
  | .hbm, ⟨11, _⟩ => ⟨S600000x128, .f32⟩
  | .hbm, ⟨12, _⟩ => ⟨S600000x128, .f32⟩
  | .hbm, ⟨13, _⟩ => ⟨S600000x128, .f32⟩
  | .hbm, ⟨14, _⟩ => ⟨S1x128, .f32⟩
  | .hbm, ⟨15, _⟩ => ⟨S600000x128, .f32⟩
  | .hbm, ⟨16, _⟩ => ⟨S600000x128, .f32⟩
  | .hbm, ⟨17, _⟩ => ⟨S600000x256, .f32⟩
  | .hbm, ⟨18, _⟩ => ⟨S600000x128, .f32⟩
  | .hbm, ⟨19, _⟩ => ⟨S1x128, .f32⟩
  | .hbm, ⟨20, _⟩ => ⟨S600000x128, .f32⟩
  | .hbm, ⟨21, _⟩ => ⟨S600000x128, .f32⟩
  | .hbm, ⟨22, _⟩ => ⟨S600000x128, .f32⟩
  | .hbm, ⟨23, _⟩ => ⟨S600000x128, .f32⟩
  | .hbm, ⟨24, _⟩ => ⟨S_, .f32⟩
  | .hbm, ⟨25, _⟩ => ⟨S600000x128, .f32⟩
  | .hbm, ⟨26, _⟩ => ⟨S600000x128, .f32⟩
  | .hbm, ⟨27, _⟩ => ⟨S_, .f32⟩
  | .hbm, ⟨28, _⟩ => ⟨S600000x128, .f32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S600000x128, .f32⟩
  | .hbm, ⟨35, _⟩ => ⟨S600000x128, .f32⟩
  | .hbm, ⟨36, _⟩ => ⟨S_, .i32⟩
  | .hbm, ⟨37, _⟩ => ⟨S1, .i32⟩
  | .hbm, ⟨38, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S1000000x128_S600000x128_0_0 : S1000000x128.Slices ![0, 0] S600000x128
  bcast_S600000_S600000x1_0 : S600000.BroadcastsInDim S600000x1 (![0] : Fin 1 → Fin S600000x1.rank)
  shapeCasts_S1x128_S128 : S1x128.ShapeCasts S128
  bcast_S128_S1x128_1 : S128.BroadcastsInDim S1x128 (![1] : Fin 1 → Fin S1x128.rank)
  bcast_S600000x1_S600000x128_0_1 : S600000x1.BroadcastsInDim S600000x128 (![0, 1] : Fin 2 → Fin S600000x128.rank)
  bcast_S1x128_S600000x128_0_1 : S1x128.BroadcastsInDim S600000x128 (![0, 1] : Fin 2 → Fin S600000x128.rank)
  concatenates_S600000x128_S600000x128_S600000x256_d1 : Shape.Concatenates [S600000x128, S600000x128] S600000x256 1
  bcast_S_S600000x128 : S_.BroadcastsInDim S600000x128 (![] : Fin 0 → Fin S600000x128.rank)
  bcast_S_S1 : S_.BroadcastsInDim S1 (![] : Fin 0 → Fin S1.rank)
  dot_S600000x256_S256x128_S600000x128_1_0_0_1_n_n_wf : DotDims.WF S600000x256 S256x128 S600000x128 [1] [0] [0] [1] [] []
  scatter_S1000000x128_S1_S600000x128_01_n_0_0_wf : ScatterDims.WF S1000000x128 S1 S600000x128 [0, 1] [] [0] 0

variable [Facts₀]

def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S1000000x128_S1_S600000x128_01_n_0_0 : ScatterDims S1000000x128 S1 S600000x128 where
  updateWindowDims := [0, 1]
  insertedWindowDims := []
  scatterDimsToOperandDims := [0]
  indexVectorDim := 0
  wf := scatter_S1000000x128_S1_S600000x128_01_n_0_0_wf

class Facts : Prop extends Facts₀ where

variable [Facts]
-- ==== Proof.TileBits.lean ====
/-
  The run of the fused gate kernel, for any reading of the floats.

  The kernel walks the first 600000 rows of the node features in 100 tiles of 6000 rows. At tile `t` it is
  handed rows [6000 t, 6000 t + 6000) of the features, the same rows of the log-likelihood column, and the four
  small parameter arrays whole; it stores one 6000 x 128 tile, a function of those seven, which is written back
  over the same rows of a copy of the features.

  The feature array has 1000000 rows, not a multiple of 6000, so its windows are described as ones whose last
  tile could overhang the array. The grid stops at tile 99, whose last row is 599999: no tile of the grid is
  cut (`uncut_in`, `uncut_out`). Hence what a fetch leaves in the staging buffer is the whole tile whatever
  the buffer held before (`found_features`), and the rest is the plain account of a body that loads its inputs
  whole, computes, and stores its output whole (`tile_run`).
-/
import proofs.«154325_j42709154792034_2_alg».proof.Proof.Gen.Kernel.Frame
import proofs.«154325_j42709154792034_2_alg».proof.Proof.Gen.Kernel.Skeleton

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No tile of the grid is cut -/

/-- Tile `t` of the features ends at row 6000 t + 5999 < 1000000, and spans all 128 columns. -/
theorem uncut_in : ∀ (t : Fin cfg0.N) (a : Fin 2), (cfg0.win 0).clip (cfg0.grid.coords t) a = none :=
  (by decide +kernel : ∀ (t : Fin grid0.N) (a : Fin 2), win0_0.clip (grid0.coords t) a = none)

/-- The same of the tile written back. -/
theorem uncut_out : ∀ (t : Fin cfg0.N) (a : Fin 2), (cfg0.win 7).clip (cfg0.grid.coords t) a = none :=
  (by decide +kernel : ∀ (t : Fin grid0.N) (a : Fin 2), win0_7.clip (grid0.coords t) a = none)

/-! ## The tile the body stores -/

abbrev rTile : Rect S6000x128 := Rect.unit (s := S6000x128) ![0, 0] S6000x128.size inb_S6000x128_S6000x128_0_0
abbrev rCol : Rect S6000x1 := Rect.unit (s := S6000x1) ![0, 0] S6000x1.size inb_S6000x1_S6000x1_0_0
abbrev rRow : Rect S1x128 := Rect.unit (s := S1x128) ![0, 0] S1x128.size inb_S1x128_S1x128_0_0
abbrev rVec : Rect S128 := Rect.unit (s := S128) ![0] S128.size inb_S128_S128_0
abbrev rMat : Rect S128x128 := Rect.unit (s := S128x128) ![0, 0] S128x128.size inb_S128x128_S128x128_0_0

/-- What the output's staging buffer holds after the body, from what the seven input buffers hold: the one
    store, of the body's arithmetic on the seven whole loads. -/
def stored (x0 : Vec F S6000x128 .f32) (x1 : Vec F S6000x1 .f32) (x2 : Vec F S1x128 .f32) (x3 : Vec F S128 .f32)
    (x4 : Vec F S128x128 .bf16) (x5 : Vec F S128x128 .bf16) (x6 : Vec F S128 .f32) : Vec F S6000x128 .f32 :=
  View.canon [⟨rTile, k0_pay1 (View.ld x0 rTile) (View.ld x1 rCol) (View.ld x2 rRow) (View.ld x3 rVec)
    (View.ld x4 rMat) (View.ld x5 rMat) (View.ld x6 rVec)⟩]

/-- The store is of the whole tile. -/
theorem stored_covers (p0 : Vec F S6000x128 .f32) (y : S6000x128.Idx) :
    ∃ pc ∈ ([⟨rTile, p0⟩] : List (View.Piece (Elt F) S6000x128 .f32)), y ∈ pc.1.set :=
  View.cover_of_tiled [⟨rTile, p0⟩] S6000x128.size (by rfl) y

/-! ## The body on any eight whole buffers -/

set_option maxHeartbeats 1000000 in
/-- The body, on whole staging buffers holding `x0 … x6` and an output buffer holding anything, ends with the
    inputs' buffers as they were and the output's at `stored`. -/
theorem tile_run (c : Dev nD) (E : Set ℕ) (i : grid0.Coords)
    (arg1 : Memref sig .tc .vmem S6000x128 .f32) (harg1 : arg1.IsWhole) (arg2 : Memref sig .tc .vmem S6000x1 .f32) (harg2 : arg2.IsWhole)
    (arg3 : Memref sig .tc .vmem S1x128 .f32) (harg3 : arg3.IsWhole) (arg4 : Memref sig .tc .vmem S128 .f32) (harg4 : arg4.IsWhole)
    (arg5 : Memref sig .tc .vmem S128x128 .bf16) (harg5 : arg5.IsWhole) (arg6 : Memref sig .tc .vmem S128x128 .bf16) (harg6 : arg6.IsWhole)
    (arg7 : Memref sig .tc .vmem S128 .f32) (harg7 : arg7.IsWhole) (arg8 : Memref sig .tc .vmem S6000x128 .f32) (harg8 : arg8.IsWhole)
    (x0 : Vec F S6000x128 .f32) (x1 : Vec F S6000x1 .f32) (x2 : Vec F S1x128 .f32) (x3 : Vec F S128 .f32)
    (x4 : Vec F S128x128 .bf16) (x5 : Vec F S128x128 .bf16) (x6 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (stored x0 x1 x2 x3 x4 x5 x6)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored_covers _)

/-! ## What each staging buffer holds, tile by tile -/

/-- The features' tile `t` as a whole 6000 x 128 block (no row of it lies past the array, so the filler is
    never read). -/
def featTile (c : Dev nD) (t : Fin cfg0.N) : S6000x128.Idx → Elt F .f32 :=
  win0_0.fill (grid0.coords t) (fun _ => Scalar.ofBits .f32 0#32) (iblk m c 0 t)

/-- After the body at tile `t`: every input buffer holds what it held — its array's block at `t` —, the
    output buffer the stored tile. -/
def dats (_ : Fin 1) (c : Dev nD) : Dat τ (Elt F) Unit ℕ (UR sig nD τ) ℕ cfg0 c where
  A w := V m c (Pipeline.arrRef spec0 w)
  after w t := match w with
    | ⟨0, _⟩ => featTile m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => stored (featTile m c t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = featTile m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = stored (featTile m c t) (iblk m c 1 t) (iblk m c 2 t) (iblk m c 3 t) (iblk m c 4 t) (iblk m c 5 t) (iblk m c 6 t) := by
  dsimp only [dats]

/-- The features' buffer, fetched at every tile, holds the tile whole: an uncut fetch fills all of the buffer. -/
theorem found_features (c : Dev nD) (t : Fin cfg0.N) (d) : (dats m 0 c).before 0 t d = featTile m c t := by
  rw [(dats m 0 c).before_fetched 0 t (fetch0_0 t)]
  unfold Dat.fetched Dat.blockOf featTile iblk
  rw [A_eq]
  exact Pipeline.fill_of_clip_none (cfg := cfg0) 0 _ (uncut_in t) _ _ _

theorem found_1 (c : Dev nD) (t : Fin cfg0.N) (d) : (dats m 0 c).before 1 t d = iblk m c 1 t :=
  before0_1_of m (dats m 0 c) (A_eq m c 1) (after_1 m c) t d
theorem found_2 (c : Dev nD) (t : Fin cfg0.N) (d) : (dats m 0 c).before 2 t d = iblk m c 2 t :=
  before0_2_of m (dats m 0 c) (A_eq m c 2) (after_2 m c) t d
theorem found_3 (c : Dev nD) (t : Fin cfg0.N) (d) : (dats m 0 c).before 3 t d = iblk m c 3 t :=
  before0_3_of m (dats m 0 c) (A_eq m c 3) (after_3 m c) t d
theorem found_4 (c : Dev nD) (t : Fin cfg0.N) (d) : (dats m 0 c).before 4 t d = iblk m c 4 t :=
  before0_4_of m (dats m 0 c) (A_eq m c 4) (after_4 m c) t d
theorem found_5 (c : Dev nD) (t : Fin cfg0.N) (d) : (dats m 0 c).before 5 t d = iblk m c 5 t :=
  before0_5_of m (dats m 0 c) (A_eq m c 5) (after_5 m c) t d
theorem found_6 (c : Dev nD) (t : Fin cfg0.N) (d) : (dats m 0 c).before 6 t d = iblk m c 6 t :=
  before0_6_of m (dats m 0 c) (A_eq m c 6) (after_6 m c) t d

/-! ## The body at tile `t` -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_features, found_1, found_2, found_3, found_4, found_5, found_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (tile_run c Set.univ _ _ _ _ _ _ _ _ _ _ _ _ _ _ _ _ _ (featTile m c t) (iblk m c 1 t) (iblk m c 2 t) (iblk m c 3 t)
    (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; the copy of the features ends at what the library
    computes from the hundred write-backs, and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Tile

end
-- ==== Proof.TileIdeal.lean ====
/-
  The run of the fused gate kernel, for any reading of the floats.

  The kernel walks the first 600000 rows of the node features in 100 tiles of 6000 rows. At tile `t` it is
  handed rows [6000 t, 6000 t + 6000) of the features, the same rows of the log-likelihood column, and the four
  small parameter arrays whole; it stores one 6000 x 128 tile, a function of those seven, which is written back
  over the same rows of a copy of the features.

  The feature array has 1000000 rows, not a multiple of 6000, so its windows are described as ones whose last
  tile could overhang the array. The grid stops at tile 99, whose last row is 599999: no tile of the grid is
  cut (`uncut_in`, `uncut_out`). Hence what a fetch leaves in the staging buffer is the whole tile whatever
  the buffer held before (`found_features`), and the rest is the plain account of a body that loads its inputs
  whole, computes, and stores its output whole (`tile_run`).
-/
import proofs.«154325_j42709154792034_2_alg».proof.Proof.Gen.KernelIdeal.Frame
import proofs.«154325_j42709154792034_2_alg».proof.Proof.Gen.KernelIdeal.Skeleton

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No tile of the grid is cut -/

/-- Tile `t` of the features ends at row 6000 t + 5999 < 1000000, and spans all 128 columns. -/
theorem uncut_in : ∀ (t : Fin cfg0.N) (a : Fin 2), (cfg0.win 0).clip (cfg0.grid.coords t) a = none :=
  (by decide +kernel : ∀ (t : Fin grid0.N) (a : Fin 2), win0_0.clip (grid0.coords t) a = none)

/-- The same of the tile written back. -/
theorem uncut_out : ∀ (t : Fin cfg0.N) (a : Fin 2), (cfg0.win 7).clip (cfg0.grid.coords t) a = none :=
  (by decide +kernel : ∀ (t : Fin grid0.N) (a : Fin 2), win0_7.clip (grid0.coords t) a = none)

/-! ## The tile the body stores -/

abbrev rTile : Rect S6000x128 := Rect.unit (s := S6000x128) ![0, 0] S6000x128.size inb_S6000x128_S6000x128_0_0
abbrev rCol : Rect S6000x1 := Rect.unit (s := S6000x1) ![0, 0] S6000x1.size inb_S6000x1_S6000x1_0_0
abbrev rRow : Rect S1x128 := Rect.unit (s := S1x128) ![0, 0] S1x128.size inb_S1x128_S1x128_0_0
abbrev rVec : Rect S128 := Rect.unit (s := S128) ![0] S128.size inb_S128_S128_0
abbrev rMat : Rect S128x128 := Rect.unit (s := S128x128) ![0, 0] S128x128.size inb_S128x128_S128x128_0_0

/-- What the output's staging buffer holds after the body, from what the seven input buffers hold: the one
    store, of the body's arithmetic on the seven whole loads. -/
def stored (x0 : Vec F S6000x128 .f32) (x1 : Vec F S6000x1 .f32) (x2 : Vec F S1x128 .f32) (x3 : Vec F S128 .f32)
    (x4 : Vec F S128x128 .bf16) (x5 : Vec F S128x128 .bf16) (x6 : Vec F S128 .f32) : Vec F S6000x128 .f32 :=
  View.canon [⟨rTile, k0_pay1 (View.ld x0 rTile) (View.ld x1 rCol) (View.ld x2 rRow) (View.ld x3 rVec)
    (View.ld x4 rMat) (View.ld x5 rMat) (View.ld x6 rVec)⟩]

/-- The store is of the whole tile. -/
theorem stored_covers (p0 : Vec F S6000x128 .f32) (y : S6000x128.Idx) :
    ∃ pc ∈ ([⟨rTile, p0⟩] : List (View.Piece (Elt F) S6000x128 .f32)), y ∈ pc.1.set :=
  View.cover_of_tiled [⟨rTile, p0⟩] S6000x128.size (by rfl) y

/-! ## The body on any eight whole buffers -/

set_option maxHeartbeats 1000000 in
/-- The body, on whole staging buffers holding `x0 … x6` and an output buffer holding anything, ends with the
    inputs' buffers as they were and the output's at `stored`. -/
theorem tile_run (c : Dev nD) (E : Set ℕ) (i : grid0.Coords)
    (arg1 : Memref sig .tc .vmem S6000x128 .f32) (harg1 : arg1.IsWhole) (arg2 : Memref sig .tc .vmem S6000x1 .f32) (harg2 : arg2.IsWhole)
    (arg3 : Memref sig .tc .vmem S1x128 .f32) (harg3 : arg3.IsWhole) (arg4 : Memref sig .tc .vmem S128 .f32) (harg4 : arg4.IsWhole)
    (arg5 : Memref sig .tc .vmem S128x128 .bf16) (harg5 : arg5.IsWhole) (arg6 : Memref sig .tc .vmem S128x128 .bf16) (harg6 : arg6.IsWhole)
    (arg7 : Memref sig .tc .vmem S128 .f32) (harg7 : arg7.IsWhole) (arg8 : Memref sig .tc .vmem S6000x128 .f32) (harg8 : arg8.IsWhole)
    (x0 : Vec F S6000x128 .f32) (x1 : Vec F S6000x1 .f32) (x2 : Vec F S1x128 .f32) (x3 : Vec F S128 .f32)
    (x4 : Vec F S128x128 .bf16) (x5 : Vec F S128x128 .bf16) (x6 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (stored x0 x1 x2 x3 x4 x5 x6)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (stored_covers _)

/-! ## What each staging buffer holds, tile by tile -/

/-- The features' tile `t` as a whole 6000 x 128 block (no row of it lies past the array, so the filler is
    never read). -/
def featTile (c : Dev nD) (t : Fin cfg0.N) : S6000x128.Idx → Elt F .f32 :=
  win0_0.fill (grid0.coords t) (fun _ => Scalar.ofBits .f32 0#32) (iblk m c 0 t)

/-- After the body at tile `t`: every input buffer holds what it held — its array's block at `t` —, the
    output buffer the stored tile. -/
def dats (_ : Fin 1) (c : Dev nD) : Dat τ (Elt F) Unit ℕ (UR sig nD τ) ℕ cfg0 c where
  A w := V m c (Pipeline.arrRef spec0 w)
  after w t := match w with
    | ⟨0, _⟩ => featTile m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => stored (featTile m c t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = featTile m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t
    = stored (featTile m c t) (iblk m c 1 t) (iblk m c 2 t) (iblk m c 3 t) (iblk m c 4 t) (iblk m c 5 t) (iblk m c 6 t) := by
  dsimp only [dats]

/-- The features' buffer, fetched at every tile, holds the tile whole: an uncut fetch fills all of the buffer. -/
theorem found_features (c : Dev nD) (t : Fin cfg0.N) (d) : (dats m 0 c).before 0 t d = featTile m c t := by
  rw [(dats m 0 c).before_fetched 0 t (fetch0_0 t)]
  unfold Dat.fetched Dat.blockOf featTile iblk
  rw [A_eq]
  exact Pipeline.fill_of_clip_none (cfg := cfg0) 0 _ (uncut_in t) _ _ _

theorem found_1 (c : Dev nD) (t : Fin cfg0.N) (d) : (dats m 0 c).before 1 t d = iblk m c 1 t :=
  before0_1_of m (dats m 0 c) (A_eq m c 1) (after_1 m c) t d
theorem found_2 (c : Dev nD) (t : Fin cfg0.N) (d) : (dats m 0 c).before 2 t d = iblk m c 2 t :=
  before0_2_of m (dats m 0 c) (A_eq m c 2) (after_2 m c) t d
theorem found_3 (c : Dev nD) (t : Fin cfg0.N) (d) : (dats m 0 c).before 3 t d = iblk m c 3 t :=
  before0_3_of m (dats m 0 c) (A_eq m c 3) (after_3 m c) t d
theorem found_4 (c : Dev nD) (t : Fin cfg0.N) (d) : (dats m 0 c).before 4 t d = iblk m c 4 t :=
  before0_4_of m (dats m 0 c) (A_eq m c 4) (after_4 m c) t d
theorem found_5 (c : Dev nD) (t : Fin cfg0.N) (d) : (dats m 0 c).before 5 t d = iblk m c 5 t :=
  before0_5_of m (dats m 0 c) (A_eq m c 5) (after_5 m c) t d
theorem found_6 (c : Dev nD) (t : Fin cfg0.N) (d) : (dats m 0 c).before 6 t d = iblk m c 6 t :=
  before0_6_of m (dats m 0 c) (A_eq m c 6) (after_6 m c) t d

/-! ## The body at tile `t` -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_features, found_1, found_2, found_3, found_4, found_5, found_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (tile_run c Set.univ _ _ _ _ _ _ _ _ _ _ _ _ _ _ _ _ _ (featTile m c t) (iblk m c 1 t) (iblk m c 2 t) (iblk m c 3 t)
    (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; the copy of the features ends at what the library
    computes from the hundred write-backs, and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Tile

end
-- ==== Proof.GateSpec.lean ====
/-
  The gated fusion of one node row, on the extended reals.

  A variable node carries a feature row `x` of 128 entries and one log-likelihood ratio `l`. The ratio is
  projected to 128 features, `L k = l * wl k + bl k`; the gate's logit at column `q` is the product of the
  256-entry row `(x, L)` with column `q` of a 256 x 128 weight matrix, plus a bias; the gate is its logistic;
  the fused entry is the gate's convex combination of `L q` and `x q`.

  The kernel multiplies `x` by the top half of the weight matrix and `L` by the bottom half and adds the two
  products; the reference multiplies the concatenated row by the whole matrix. The two agree because a sum over
  256 indices is the sum over the first 128 plus the sum over the last 128 (`sum_halves`), which holds in any
  commutative monoid, the extended reals with their infinities included. The reference spells the logistic out as
  `1 / (1 + exp (-z))` with the float 1.0 for both ones; that float denotes the real 1 (`one_eq`).
-/
import Idealize.ShloMosaic.PureOps.Ideal
import Idealize.ShloMosaic.Lib.ValueIdx
import Mathlib.Algebra.BigOperators.Fin

noncomputable section

namespace GateSpec

open Idealize.ShloMosaic Idealize.ShloMosaic.ValueIdx

/-- The float 1.0 as the extended real it denotes. -/
abbrev one : EReal := Ideal.ofBits .f32 0x3F800000#32

/-- Sign 0, exponent 127, fraction 0: `2^23 * 2^(127 - 127 - 23) = 1`. -/
theorem one_eq : one = 1 := by
  simp [one, Ideal.ofBits, Ideal.ieee, -EReal.coe_mul]; norm_num

/-- The projected log-likelihood features of a row. -/
def feat (l : EReal) (wl bl : Fin 128 → EReal) (k : Fin 128) : EReal := l * wl k + bl k

/-- The gate's logit: the feature row against `w1`, the projected row against `w2`, and the bias. -/
def logit (x L w1 w2 : Fin 128 → EReal) (b : EReal) : EReal := ((∑ k, x k * w1 k) + ∑ k, L k * w2 k) + b

/-- The convex combination by the gate `g`. -/
def mix (g Lq xq : EReal) : EReal := g * Lq + (one - g) * xq

/-- The fused entry at column `q` of a row. -/
def fused (x : Fin 128 → EReal) (l : EReal) (wl bl w1 w2 : Fin 128 → EReal) (b : EReal) (q : Fin 128) : EReal :=
  mix (Ideal.logistic (logit x (feat l wl bl) w1 w2 b)) (feat l wl bl q) (x q)

/-- The logistic spelled out with the float 1.0 is the logistic. -/
theorem logistic_expanded (z : EReal) : Ideal.div one (one + Ideal.exp (-z)) = Ideal.logistic z := by
  rw [one_eq]; rfl

/-- A sum over 256 indices is the sum over the first 128 plus the sum over the last 128. -/
theorem sum_halves (f : Fin 256 → EReal) :
    ∑ k : Fin 256, f k = (∑ k : Fin 128, f ⟨k.val, by omega⟩) + ∑ k : Fin 128, f ⟨128 + k.val, by omega⟩ :=
  Fin.sum_univ_add (a := 128) (b := 128) f

/-- Equal ingredients give equal fused entries. -/
theorem fused_congr {x x' : Fin 128 → EReal} {l l' : EReal} {wl wl' bl bl' w1 w1' w2 w2' : Fin 128 → EReal} {b b' : EReal} {q q' : Fin 128}
    (hx : x = x') (hl : l = l') (hwl : wl = wl') (hbl : bl = bl') (hw1 : w1 = w1') (hw2 : w2 = w2') (hb : b = b') (hq : q = q') :
    fused x l wl bl w1 w2 b q = fused x' l' wl' bl' w1' w2' b' q' := by
  subst hx hl hwl hbl hw1 hw2 hb hq; rfl

/-- The whole result array, from the six float arguments: a row below 600000 is fused from its own features, its
    own ratio, and the parameters — the weight matrix's rows 0..127 against the features, its rows 128..255 against
    the projected ratio —; a row from 600000 on is the features' row, unchanged. -/
def fusedArray (a0 : (⟨2, ![1000000, 128]⟩ : Shape).Idx → EReal) (a1 : (⟨1, ![600000]⟩ : Shape).Idx → EReal)
    (a2 : (⟨2, ![1, 128]⟩ : Shape).Idx → EReal) (a3 : (⟨1, ![128]⟩ : Shape).Idx → EReal)
    (a4 : (⟨2, ![256, 128]⟩ : Shape).Idx → EReal) (a5 : (⟨1, ![128]⟩ : Shape).Idx → EReal) :
    (⟨2, ![1000000, 128]⟩ : Shape).Idx → EReal := fun i =>
  if h : (i 0).val < 600000 then
    fused (fun k => a0 (ix2 (⟨(i 0).val, (i 0).isLt⟩ : Fin 1000000) k)) (a1 (ix1 (⟨(i 0).val, h⟩ : Fin 600000)))
      (fun k => a2 (ix2 (0 : Fin 1) k)) (fun k => a3 (ix1 k))
      (fun k => a4 (ix2 (⟨k.val, Nat.lt_trans k.isLt (by decide)⟩ : Fin 256) (⟨(i 1).val, (i 1).isLt⟩ : Fin 128)))
      (fun k => a4 (ix2 (⟨128 + k.val, Nat.add_lt_add_left k.isLt 128⟩ : Fin 256) (⟨(i 1).val, (i 1).isLt⟩ : Fin 128)))
      (a5 (ix1 (⟨(i 1).val, (i 1).isLt⟩ : Fin 128))) (⟨(i 1).val, (i 1).isLt⟩ : Fin 128)
  else a0 i

end GateSpec

end
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.KernelTile.lean ====
/-
  The stored tile of the idealized kernel, entry by entry.

  At row `p` and column `q` of a tile the body's arithmetic is the gated fusion of `GateSpec`: the row of the
  feature tile, the row's log-likelihood ratio, the two projection vectors, column `q` of the two weight blocks and
  entry `q` of the gate's bias. On the extended reals the two roundings to the narrower float format are the
  identity, and a matrix product into a zero accumulator is the plain sum over the contracted index.
-/
import proofs.«154325_j42709154792034_2_alg».proof.Proof.TileIdeal
import proofs.«154325_j42709154792034_2_alg».proof.Proof.GateSpec
import proofs.«154325_j42709154792034_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen
open Idealize.ShloMosaic Idealize.ShloMosaic.ValueIdx ColumnLayout

/-! ## The body's arithmetic in three steps -/

/-- The projected log-likelihood features of the tile's rows: the column of ratios times the row of weights, plus
    the row of biases. -/
def featOf (v1 : Vec Ideal S6000x1 .f32) (v3 : Vec Ideal S1x128 .f32) (v7 : Vec Ideal S128 .f32) : FVec Ideal S6000x128 .f32 :=
  addf (mulf (broadcastTo S6000x128 (shapeCast S6000x1 v1 shapeCasts_S6000x1_S6000x1 : FVec Ideal S6000x1 .f32) broadcasts_S6000x1_S6000x128)
      (broadcastTo S6000x128 v3 broadcasts_S1x128_S6000x128))
    (broadcastTo S6000x128 (shapeCast S1x128 v7 shapeCasts_S128_S1x128 : FVec Ideal S1x128 .f32) broadcasts_S1x128_S6000x128)

/-- The gate's logits: the feature tile times the first weight block, plus the projected tile times the second,
    plus the row of biases. -/
def logitOf (v0 L : FVec Ideal S6000x128 .f32) (v13 v16 : Vec Ideal S128x128 .bf16) (v20 : Vec Ideal S128 .f32) :
    FVec Ideal S6000x128 .f32 :=
  addf (addf (matmul dot_S6000x128_S128x128_S6000x128_1_0_0_1_n_n none (truncf .bf16 v0 bitsLt_bf16_f32)
        (shapeCast S128x128 v13 shapeCasts_S128x128_S128x128 : FVec Ideal S128x128 .bf16) (constant (F := Ideal) S6000x128 .f32 0x00000000#32))
      (matmul dot_S6000x128_S128x128_S6000x128_1_0_0_1_n_n none (truncf .bf16 L bitsLt_bf16_f32)
        (shapeCast S128x128 v16 shapeCasts_S128x128_S128x128 : FVec Ideal S128x128 .bf16) (constant (F := Ideal) S6000x128 .f32 0x00000000#32)))
    (broadcastTo S6000x128 (shapeCast S1x128 v20 shapeCasts_S128_S1x128 : FVec Ideal S1x128 .f32) broadcasts_S1x128_S6000x128)

/-- The gate's convex combination of the projected tile and the feature tile. -/
def mixOf (v0 L z : FVec Ideal S6000x128 .f32) : FVec Ideal S6000x128 .f32 :=
  addf (mulf (logistic z) L) (mulf (subf (broadcast S6000x128 (Scalar.ofBits (F := Ideal) .f32 0x3F800000#32)) (logistic z)) v0)

/-- The body's one payload is these three steps composed. -/
theorem pay_eq (v0 : Vec Ideal S6000x128 .f32) (v1 : Vec Ideal S6000x1 .f32) (v3 : Vec Ideal S1x128 .f32) (v7 : Vec Ideal S128 .f32)
    (v13 v16 : Vec Ideal S128x128 .bf16) (v20 : Vec Ideal S128 .f32) :
    k0_pay1 (F := Ideal) v0 v1 v3 v7 v13 v16 v20 = mixOf v0 (featOf v1 v3 v7) (logitOf v0 (featOf v1 v3 v7) v13 v16 v20) := rfl

/-! ## Each step at a row and a column -/

theorem featOf_apply (v1 : Vec Ideal S6000x1 .f32) (v3 : Vec Ideal S1x128 .f32) (v7 : Vec Ideal S128 .f32) (p : Fin 6000) (k : Fin 128) :
    featOf v1 v3 v7 (ix2 p k) = GateSpec.feat (v1 (ix2 p (0 : Fin 1))) (fun k => v3 (ix2 (0 : Fin 1) k)) (fun k => v7 (ix1 k)) k := by
  unfold featOf GateSpec.feat
  rw [addf_apply, mulf_apply, broadcastTo_a1_ab_apply, shapeCast_self, broadcastTo_1b_ab_apply, broadcastTo_1b_ab_apply,
    shapeCast_a_1a_apply]

theorem lhs_row (p : Fin 6000) (q : Fin 128) (k : dot_S6000x128_S128x128_S6000x128_1_0_0_1_n_n.contr.Idx) :
    (dot_S6000x128_S128x128_S6000x128_1_0_0_1_n_n.lhsIdx (ix2 p q) k 0).val = p.val := by
  unfold DotDims.lhsIdx
  rw [dif_neg (show ¬(0 : Fin S6000x128.rank) ∈ dot_S6000x128_S128x128_S6000x128_1_0_0_1_n_n.lhsBatch by decide),
    dif_pos (show (0 : Fin S6000x128.rank) ∈ dot_S6000x128_S128x128_S6000x128_1_0_0_1_n_n.lhsNonContracting by decide)]
  rfl

theorem rhs_col (p : Fin 6000) (q : Fin 128) (k : dot_S6000x128_S128x128_S6000x128_1_0_0_1_n_n.contr.Idx) :
    (dot_S6000x128_S128x128_S6000x128_1_0_0_1_n_n.rhsIdx (ix2 p q) k 1).val = q.val := by
  unfold DotDims.rhsIdx
  rw [dif_neg (show ¬(1 : Fin S128x128.rank) ∈ dot_S6000x128_S128x128_S6000x128_1_0_0_1_n_n.rhsBatch by decide),
    dif_pos (show (1 : Fin S128x128.rank) ∈ dot_S6000x128_S128x128_S6000x128_1_0_0_1_n_n.rhsNonContracting by decide)]
  rfl

/-- A tile times a weight block into a zero accumulator, at row `p` and column `q`: the sum over the 128
    contracted entries. -/
theorem product_apply (A : FVec Ideal S6000x128 .bf16) (B : FVec Ideal S128x128 .bf16) (p : Fin 6000) (q : Fin 128) :
    matmul dot_S6000x128_S128x128_S6000x128_1_0_0_1_n_n none A B (constant (F := Ideal) S6000x128 .f32 0x00000000#32) (ix2 p q)
      = ∑ k : Fin 128, A (ix2 p k) * B (ix2 k q) := by
  show FloatOps.matmul dot_S6000x128_S128x128_S6000x128_1_0_0_1_n_n none A B (constant S6000x128 .f32 0x00000000#32) (ix2 p q) = _
  rw [Ideal.matmul_constant_zero_apply, ← Equiv.sum_comp (contrEquiv1 dot_S6000x128_S128x128_S6000x128_1_0_0_1_n_n 128 rfl rfl).symm]
  refine Finset.sum_congr rfl fun k _ => ?_
  have hk := contrEquiv1_symm_val dot_S6000x128_S128x128_S6000x128_1_0_0_1_n_n 128 rfl rfl k
  have el : dot_S6000x128_S128x128_S6000x128_1_0_0_1_n_n.lhsIdx (ix2 p q) ((contrEquiv1 dot_S6000x128_S128x128_S6000x128_1_0_0_1_n_n 128 rfl rfl).symm k) = ix2 p k := funext fun a => Fin.ext (by
    match a with
    | ⟨0, _⟩ => exact lhs_row p q _
    | ⟨1, _⟩ => exact (dot_S6000x128_S128x128_S6000x128_1_0_0_1_n_n.lhsIdx_val_of_single rfl _ _).trans hk)
  have er : dot_S6000x128_S128x128_S6000x128_1_0_0_1_n_n.rhsIdx (ix2 p q) ((contrEquiv1 dot_S6000x128_S128x128_S6000x128_1_0_0_1_n_n 128 rfl rfl).symm k) = ix2 k q := funext fun a => Fin.ext (by
    match a with
    | ⟨0, _⟩ => exact (dot_S6000x128_S128x128_S6000x128_1_0_0_1_n_n.rhsIdx_val_of_single rfl _ _).trans hk
    | ⟨1, _⟩ => exact rhs_col p q _)
  rw [el, er]

theorem logitOf_apply (v0 L : FVec Ideal S6000x128 .f32) (v13 v16 : Vec Ideal S128x128 .bf16) (v20 : Vec Ideal S128 .f32)
    (p : Fin 6000) (q : Fin 128) :
    logitOf v0 L v13 v16 v20 (ix2 p q)
      = GateSpec.logit (fun k => v0 (ix2 p k)) (fun k => L (ix2 p k)) (fun k => v13 (ix2 k q)) (fun k => v16 (ix2 k q)) (v20 (ix1 q)) := by
  unfold logitOf GateSpec.logit
  rw [addf_apply, addf_apply, product_apply, product_apply, broadcastTo_1b_ab_apply, shapeCast_a_1a_apply, shapeCast_self, shapeCast_self]
  rfl

/-- The stored tile at row `p`, column `q`. -/
theorem pay_apply (v0 : Vec Ideal S6000x128 .f32) (v1 : Vec Ideal S6000x1 .f32) (v3 : Vec Ideal S1x128 .f32) (v7 : Vec Ideal S128 .f32)
    (v13 v16 : Vec Ideal S128x128 .bf16) (v20 : Vec Ideal S128 .f32) (p : Fin 6000) (q : Fin 128) :
    k0_pay1 (F := Ideal) v0 v1 v3 v7 v13 v16 v20 (ix2 p q)
      = GateSpec.fused (fun k => v0 (ix2 p k)) (v1 (ix2 p (0 : Fin 1))) (fun k => v3 (ix2 (0 : Fin 1) k)) (fun k => v7 (ix1 k))
          (fun k => v13 (ix2 k q)) (fun k => v16 (ix2 k q)) (v20 (ix1 q)) q := by
  rw [pay_eq]
  unfold mixOf GateSpec.fused GateSpec.mix
  rw [addf_apply, mulf_apply, mulf_apply, subf_apply, broadcast_apply]
  show Ideal.logistic (logitOf v0 (featOf v1 v3 v7) v13 v16 v20 (ix2 p q)) * featOf v1 v3 v7 (ix2 p q)
      + (GateSpec.one - Ideal.logistic (logitOf v0 (featOf v1 v3 v7) v13 v16 v20 (ix2 p q))) * v0 (ix2 p q) = _
  rw [logitOf_apply, featOf_apply]
  simp only [featOf_apply]

/-! ## The stored tile is the payload of the seven buffers' contents -/

theorem zeros2 : (![0, 0] : Fin 2 → Nat) = fun _ => 0 := funext fun a => by fin_cases a <;> rfl
theorem zeros1 : (![0] : Fin 1 → Nat) = fun _ => 0 := funext fun a => by fin_cases a; rfl

theorem stored_eq (x0 : Vec Ideal S6000x128 .f32) (x1 : Vec Ideal S6000x1 .f32) (x2 : Vec Ideal S1x128 .f32) (x3 : Vec Ideal S128 .f32)
    (x4 x5 : Vec Ideal S128x128 .bf16) (x6 : Vec Ideal S128 .f32) :
    Tile.stored x0 x1 x2 x3 x4 x5 x6 = k0_pay1 (F := Ideal) x0 x1 x2 x3 x4 x5 x6 := by
  unfold Tile.stored
  rw [View.canon_unit_zero zeros2]
  simp only [View.ld_unit_zero (S := S6000x128) zeros2, View.ld_unit_zero (S := S6000x1) zeros2, View.ld_unit_zero (S := S1x128) zeros2,
    View.ld_unit_zero (S := S128x128) zeros2, View.ld_unit_zero (S := S128) zeros1]

end Cert.KernelIdeal.TileValue

end
-- ==== Proof.LibUncutFill.lean ====
/-
  A window whose transfer at a grid point is not cut on any axis fills all of its staging block: the filled
  block, read at any index, is the fetched block at that index, whatever the block held before.
-/
import Idealize.ShloMosaic.Lib.Pipeline

namespace Idealize.ShloMosaic.Pipeline.Window

variable {sig : RefSig} {G : Grid} (w : Window sig G)

/-- With no cut at `i`, every index of the block is one the transfer moves. -/
theorem moved_of_uncut (i : G.Coords) (h : ∀ a, w.clip i a = none) (y : w.block.Idx) : w.moved i y = true :=
  (w.moved_iff i y).mpr fun a => by unfold Window.xsize; rw [h a]; exact (y a).isLt

/-- The index of the moved part under a block index, when nothing is cut. -/
def uncutIdx (i : G.Coords) (h : ∀ a, w.clip i a = none) (y : w.block.Idx) : (w.xblock i).Idx :=
  fun a => ⟨(y a).val, (w.moved_iff i y).mp (w.moved_of_uncut i h y) a⟩

/-- An uncut fill read at `y` is the fetched part at `y`. -/
theorem fill_uncut {α : Type} (i : G.Coords) (h : ∀ a, w.clip i a = none) (d : w.block.Idx → α) (g : (w.xblock i).Idx → α)
    (y : w.block.Idx) : w.fill i d g y = g (w.uncutIdx i h y) := by
  unfold Window.fill; rw [dif_pos (w.moved_of_uncut i h y)]; rfl

end Idealize.ShloMosaic.Pipeline.Window
-- ==== Proof.KernelArray.lean ====
/-
  The array the idealized kernel leaves, as one function of its arguments.

  Tile `t` of the grid stages rows [6000 t, 6000 t + 6000) of the features and of the ratio column, and the four
  parameter arrays whole (the two weight blocks are rows 0..127 and 128..255 of the weight matrix; the ratio column
  is the ratio vector stood up). What it writes back over the same rows of the copy of the features is, entry by
  entry, the gated fusion of those rows (`writes_back`). The hundred tiles cover exactly the rows below 600000
  (`covered_iff`), so the copy ends as `GateSpec.fusedArray` of the arguments (`final`): fused below row 600000,
  the features' own rows from there on.
-/
import proofs.«154325_j42709154792034_2_alg».proof.Proof.KernelTile
import proofs.«154325_j42709154792034_2_alg».proof.Proof.LibUncutFill
import Idealize.ShloMosaic.Lib.StableHlo.Run

set_option maxRecDepth 16384

noncomputable section

namespace Cert.KernelIdeal.ArrayValue

open Cert.KernelIdeal Cert.KernelIdeal.Gen
open Idealize.ShloMosaic Idealize.ShloMosaic.TcCoe Idealize.ShloMosaic.ValueIdx Idealize.ShloMosaic.StableHlo ColumnLayout
open Idealize.SL.Sem
open Idealize.ShloMosaic.Pipeline (Dat Cfg Window)

variable (m : (ℓ : Loc nD τ sig) → Buf (Elt Ideal) ℓ) (ρ : Dev nD → PrngReg)

/-! ## Where each window's block sits -/

/-- The features, the ratio column and the result move one tile of rows per grid point; the parameters stay. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem tiles_lt (t : Fin cfg0.N) : t.val < 100 := Nat.lt_of_lt_of_eq (show t.val < grid0.N from t.isLt) N_0

/-! ## The arrays the host wrote before the region -/

/-- The ratio column is the ratio vector, row-major. -/
theorem found_ratios (c : Dev nD) :
    (V m c main_v0 : S600000x1.Idx → EReal) = shapeCast S600000x1 (m ((c : Thread nD τ).loc main_arg1)) shapeCasts_S600000_S600000x1 := by
  dsimp only [V, hostOps0]; after_results; rfl

/-- The first weight block: rows 0..127 of the weight matrix (the narrowing of the format is the identity). -/
theorem found_w1 (c : Dev nD) :
    (V m c main_v2 : S128x128.Idx → EReal)
      = truncf .bf16 (extractStridedSlice S128x128 ![0, 0] (m ((c : Thread nD τ).loc main_arg4)) slices_S256x128_S128x128_0_0 : FVec Ideal S128x128 .f32) bitsLt_bf16_f32 := by
  dsimp only [V, hostOps0]; after_results

/-- The second weight block: rows 128..255. -/
theorem found_w2 (c : Dev nD) :
    (V m c main_v4 : S128x128.Idx → EReal)
      = truncf .bf16 (extractStridedSlice S128x128 ![128, 0] (m ((c : Thread nD τ).loc main_arg4)) slices_S256x128_S128x128_128_0 : FVec Ideal S128x128 .f32) bitsLt_bf16_f32 := by
  dsimp only [V, hostOps0]; after_results

/-- The result's buffer enters the region as a copy of the features. -/
theorem found_copy (c : Dev nD) : (V m c main_v5 : S1000000x128.Idx → EReal) = (m ((c : Thread nD τ).loc main_arg0)) := by
  dsimp only [V, hostOps0]; after_results; rfl

/-! ## Each staged block, read at coordinates, in the argument arrays -/

theorem tile_features (c : Dev nD) (t : Fin cfg0.N) (p : Fin 6000) (k : Fin 128) (r : Fin 1000000) (hr : r.val = t.val * 6000 + p.val) :
    Tile.featTile m c t (ix2 p k) = (m ((c : Thread nD τ).loc main_arg0)) (ix2 r k) := by
  obtain ⟨e00, e01, -⟩ := tile_index t
  unfold Tile.featTile
  rw [Window.fill_uncut win0_0 (grid0.coords t) (Tile.uncut_in t)]
  show V m c main_arg0 (((cfg0.win 0).blk t).view.emb (win0_0.uncutIdx (grid0.coords t) (Tile.uncut_in t) (ix2 p k))) = _
  rw [V_main_arg0]
  refine congrArg _ (funext fun a => Fin.ext ?_)
  match a with
  | ⟨0, _⟩ => show win0_0.index t (0 : Fin 2) * 6000 + 1 * p.val = r.val; rw [e00, hr]; omega
  | ⟨1, _⟩ => show win0_0.index t (1 : Fin 2) * 128 + 1 * k.val = k.val; rw [e01]; omega

theorem tile_ratio (c : Dev nD) (t : Fin cfg0.N) (p : Fin 6000) (r : Fin 600000) (hr : r.val = t.val * 6000 + p.val) :
    iblk m c 1 t (ix2 p (0 : Fin 1)) = (m ((c : Thread nD τ).loc main_arg1)) (ix1 r) := by
  obtain ⟨-, -, e10, e11, -⟩ := tile_index t
  show V m c main_v0 (((cfg0.win 1).blk t).view.emb (ix2 p (0 : Fin 1))) = _
  rw [found_ratios]
  have e : ((cfg0.win 1).blk t).view.emb (ix2 p (0 : Fin 1)) = ix2 r (0 : Fin 1) := funext fun a => Fin.ext (by
    match a with
    | ⟨0, _⟩ => show win0_1.index t (0 : Fin 2) * 6000 + 1 * p.val = r.val; rw [e10, hr]; omega
    | ⟨1, _⟩ => show win0_1.index t (1 : Fin 2) * 1 + 1 * 0 = 0; rw [e11])
  rw [e, shapeCast_a_a1_apply]

theorem tile_wl (c : Dev nD) (t : Fin cfg0.N) (k : Fin 128) :
    iblk m c 2 t (ix2 (0 : Fin 1) k) = (m ((c : Thread nD τ).loc main_arg2)) (ix2 (0 : Fin 1) k) := by
  obtain ⟨-, -, -, -, e20, e21, -⟩ := tile_index t
  show V m c main_arg2 (((cfg0.win 2).blk t).view.emb (ix2 (0 : Fin 1) k)) = _
  rw [V_main_arg2]
  refine congrArg _ (funext fun a => Fin.ext ?_)
  match a with
  | ⟨0, _⟩ => show win0_2.index t (0 : Fin 2) * 1 + 1 * 0 = 0; rw [e20]
  | ⟨1, _⟩ => show win0_2.index t (1 : Fin 2) * 128 + 1 * k.val = k.val; rw [e21]; omega

theorem tile_bl (c : Dev nD) (t : Fin cfg0.N) (k : Fin 128) :
    iblk m c 3 t (ix1 k) = (m ((c : Thread nD τ).loc main_arg3)) (ix1 k) := by
  obtain ⟨-, -, -, -, -, -, e30, -⟩ := tile_index t
  show V m c main_arg3 (((cfg0.win 3).blk t).view.emb (ix1 k)) = _
  rw [V_main_arg3]
  refine congrArg _ (funext fun a => Fin.ext ?_)
  match a with
  | ⟨0, _⟩ => show win0_3.index t (0 : Fin 1) * 128 + 1 * k.val = k.val; rw [e30]; omega

theorem tile_w1 (c : Dev nD) (t : Fin cfg0.N) (k q : Fin 128) (r : Fin 256) (hr : r.val = k.val) :
    iblk m c 4 t (ix2 k q) = (m ((c : Thread nD τ).loc main_arg4)) (ix2 r q) := by
  obtain ⟨-, -, -, -, -, -, -, e40, e41, -⟩ := tile_index t
  show V m c main_v2 (((cfg0.win 4).blk t).view.emb (ix2 k q)) = _
  rw [found_w1]
  have e : ((cfg0.win 4).blk t).view.emb (ix2 k q) = ix2 k q := funext fun a => Fin.ext (by
    match a with
    | ⟨0, _⟩ => show win0_4.index t (0 : Fin 2) * 128 + 1 * k.val = k.val; rw [e40]; omega
    | ⟨1, _⟩ => show win0_4.index t (1 : Fin 2) * 128 + 1 * q.val = q.val; rw [e41]; omega)
  rw [e, truncf_apply, slice2_axis0_apply 0 _ _ k q r (by rw [hr]; omega)]

theorem tile_w2 (c : Dev nD) (t : Fin cfg0.N) (k q : Fin 128) (r : Fin 256) (hr : r.val = 128 + k.val) :
    iblk m c 5 t (ix2 k q) = (m ((c : Thread nD τ).loc main_arg4)) (ix2 r q) := by
  obtain ⟨-, -, -, -, -, -, -, -, -, e50, e51, -⟩ := tile_index t
  show V m c main_v4 (((cfg0.win 5).blk t).view.emb (ix2 k q)) = _
  rw [found_w2]
  have e : ((cfg0.win 5).blk t).view.emb (ix2 k q) = ix2 k q := funext fun a => Fin.ext (by
    match a with
    | ⟨0, _⟩ => show win0_5.index t (0 : Fin 2) * 128 + 1 * k.val = k.val; rw [e50]; omega
    | ⟨1, _⟩ => show win0_5.index t (1 : Fin 2) * 128 + 1 * q.val = q.val; rw [e51]; omega)
  rw [e, truncf_apply, slice2_axis0_apply 128 _ _ k q r hr]

theorem tile_bg (c : Dev nD) (t : Fin cfg0.N) (q : Fin 128) :
    iblk m c 6 t (ix1 q) = (m ((c : Thread nD τ).loc main_arg5)) (ix1 q) := by
  obtain ⟨-, -, -, -, -, -, -, -, -, -, -, e60, -⟩ := tile_index t
  show V m c main_arg5 (((cfg0.win 6).blk t).view.emb (ix1 q)) = _
  rw [V_main_arg5]
  refine congrArg _ (funext fun a => Fin.ext ?_)
  match a with
  | ⟨0, _⟩ => show win0_6.index t (0 : Fin 1) * 128 + 1 * q.val = q.val; rw [e60]; omega

/-! ## What tile `t` writes back -/

/-- The rows tile `t` writes back are those rows of the fused array. -/
theorem writes_back (c : Dev nD) (t : Fin cfg0.N) :
    (Tile.dats m 0 c).flushed 7 t = ((cfg0.win 7).blk t).view.read (Elt Ideal) (GateSpec.fusedArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 7).cut (grid0.coords t) ((Tile.dats m 0 c).after 7 t) = _
  rw [Tile.after_7, TileValue.stored_eq]
  obtain ⟨-, -, -, -, -, -, -, -, -, -, -, -, e70, e71⟩ := tile_index t
  have ht := tiles_lt t
  funext j
  have hj0 : (j 0).val < 6000 := Nat.lt_of_lt_of_le (j 0).isLt (win0_7.xsize_le (grid0.coords t) 0)
  have hj1 : (j 1).val < 128 := Nat.lt_of_lt_of_le (j 1).isLt (win0_7.xsize_le (grid0.coords t) 1)
  show k0_pay1 (F := Ideal) (Tile.featTile m c t) (iblk m c 1 t) (iblk m c 2 t) (iblk m c 3 t) (iblk m c 4 t) (iblk m c 5 t) (iblk m c 6 t)
      (win0_7.xinj (grid0.coords t) j) = GateSpec.fusedArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb j)
  rw [show win0_7.xinj (grid0.coords t) j = ix2 (⟨(j 0).val, hj0⟩ : Fin 6000) (⟨(j 1).val, hj1⟩ : Fin 128) from
      funext fun a => Fin.ext (by match a with | ⟨0, _⟩ => rfl | ⟨1, _⟩ => rfl), TileValue.pay_apply]
  have hr : ((((cfg0.win 7).blk t).view.emb j) 0).val = t.val * 6000 + (j 0).val := by
    show win0_7.index t (0 : Fin 2) * 6000 + 1 * (j 0).val = _; rw [e70]; omega
  have hc : ((((cfg0.win 7).blk t).view.emb j) 1).val = (j 1).val := by
    show win0_7.index t (1 : Fin 2) * 128 + 1 * (j 1).val = _; rw [e71]; omega
  unfold GateSpec.fusedArray
  rw [dif_pos (show ((((cfg0.win 7).blk t).view.emb j) 0).val < 600000 by rw [hr]; omega)]
  refine GateSpec.fused_congr ?_ ?_ ?_ ?_ ?_ ?_ ?_ ?_
  · funext k; exact tile_features m c t _ k _ hr
  · exact tile_ratio m c t _ _ hr
  · funext k; exact tile_wl m c t k
  · funext k; exact tile_bl m c t k
  · funext k; exact tile_w1 m c t k _ _ rfl |>.trans (congrArg _ (congrArg _ (Fin.ext hc.symm)))
  · funext k; exact tile_w2 m c t k _ _ rfl |>.trans (congrArg _ (congrArg _ (Fin.ext hc.symm)))
  · exact (tile_bg m c t _).trans (congrArg _ (congrArg _ (Fin.ext hc.symm)))
  · exact Fin.ext hc.symm

/-! ## Which rows the tiles cover -/

theorem mem_tile (t : Fin cfg0.N) (i : S1000000x128.Idx) :
    i ∈ ((cfg0.win 7).blk t).view.set ↔ ∀ a : Fin 2, win0_7.index t a * S6000x128.size a ≤ (i a).val
      ∧ (i a).val < win0_7.index t a * S6000x128.size a + win0_7.xsize (grid0.coords t) a := by
  show i ∈ ((View.whole main_v5).slice (win0_7.rect t)).set ↔ _
  rw [View.set_slice_whole, Rect.mem_set_unit]
  exact Iff.rfl

theorem whole_tile (t : Fin cfg0.N) : win0_7.xsize (grid0.coords t) (0 : Fin 2) = 6000 ∧ win0_7.xsize (grid0.coords t) (1 : Fin 2) = 128 := by
  constructor
  · show (win0_7.clip (grid0.coords t) (0 : Fin 2)).extent 6000 = 6000; rw [show win0_7.clip (grid0.coords t) (0 : Fin 2) = none from Tile.uncut_out t 0]
  · show (win0_7.clip (grid0.coords t) (1 : Fin 2)).extent 128 = 128; rw [show win0_7.clip (grid0.coords t) (1 : Fin 2) = none from Tile.uncut_out t 1]

/-- A row is written by some tile exactly when it is below 600000: row `r` by tile `r / 6000`. -/
theorem covered_iff (i : S1000000x128.Idx) :
    (∃ t : Fin cfg0.N, (cfg0.win 7).flush t = true ∧ i ∈ ((cfg0.win 7).blk t).view.set) ↔ (i 0).val < 600000 := by
  constructor
  · rintro ⟨t, -, hi⟩
    rw [mem_tile] at hi
    obtain ⟨-, -, -, -, -, -, -, -, -, -, -, -, e70, e71⟩ := tile_index t
    have ht := tiles_lt t
    have hw := whole_tile t
    have b0 : win0_7.index t (0 : Fin 2) * 6000 ≤ (i 0).val ∧ (i 0).val < win0_7.index t (0 : Fin 2) * 6000 + win0_7.xsize (grid0.coords t) (0 : Fin 2) := hi 0
    rw [e70, hw.1] at b0
    omega
  · intro h
    have hi1 : (i 1).val < 128 := (i 1).isLt
    let t : Fin cfg0.N := ⟨(i 0).val / 6000, by rw [show cfg0.N = grid0.N from rfl, N_0]; omega⟩
    obtain ⟨-, -, -, -, -, -, -, -, -, -, -, -, e70, e71⟩ := tile_index t
    have hw := whole_tile t
    refine ⟨t, flush0_7 t, ?_⟩
    rw [mem_tile]
    intro a
    match a with
    | ⟨0, _⟩ =>
      show win0_7.index t (0 : Fin 2) * 6000 ≤ (i 0).val ∧ (i 0).val < win0_7.index t (0 : Fin 2) * 6000 + win0_7.xsize (grid0.coords t) (0 : Fin 2)
      rw [e70, hw.1]; show (i 0).val / 6000 * 6000 ≤ (i 0).val ∧ (i 0).val < (i 0).val / 6000 * 6000 + 6000; omega
    | ⟨1, _⟩ =>
      show win0_7.index t (1 : Fin 2) * 128 ≤ (i 1).val ∧ (i 1).val < win0_7.index t (1 : Fin 2) * 128 + win0_7.xsize (grid0.coords t) (1 : Fin 2)
      rw [e71, hw.2]; omega

/-! ## The array after the run -/

theorem final (c : Dev nD) : (Tile.dats m 0 c).arrAt 7 cfg0.N = GateSpec.fusedArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  rw [(Tile.dats m 0 c).arrAt_eq_piecewise 7 _ (fun t _ => writes_back m c t) i, Tile.A_eq]
  by_cases h : (i 0).val < 600000
  · rw [if_pos ((covered_iff i).mpr h)]
  · rw [if_neg (mt (covered_iff i).mp h)]
    show V m c main_v5 i = _
    rw [found_copy]
    unfold GateSpec.fusedArray
    rw [dif_neg h]

/-- Every weakly fair execution of the idealized kernel terminates with its result at the fused array of its
    arguments, and its arguments as they were. -/
theorem run : θ_run defs (onTc (τ := τ) (main (F := Ideal))) ⟨m, fun _ => 0, ρ⟩ fun r => ∀ c : Dev nD,
      r.2.mem ((c : Thread nD τ).loc main_v5) = GateSpec.fusedArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1 7).trans (final m c),
      ((h c).1 0).trans (((Tile.dats m 0 c).arrAt_in 0 rfl _).trans ((Tile.A_eq m c 0).trans (V_main_arg0 m c))),
      ((h c).2 main_arg1 (Pipeline.mem_restRefs_of main_arg1 (by decide) (by decide))).trans (V_main_arg1 m c),
      ((h c).1 2).trans (((Tile.dats m 0 c).arrAt_in 2 rfl _).trans ((Tile.A_eq m c 2).trans (V_main_arg2 m c))),
      ((h c).1 3).trans (((Tile.dats m 0 c).arrAt_in 3 rfl _).trans ((Tile.A_eq m c 3).trans (V_main_arg3 m c))),
      ((h c).2 main_arg4 (Pipeline.mem_restRefs_of main_arg4 (by decide) (by decide))).trans (V_main_arg4 m c),
      ((h c).1 6).trans (((Tile.dats m 0 c).arrAt_in 6 rfl _).trans ((Tile.A_eq m c 6).trans (V_main_arg5 m c))),
      ((h c).2 main_arg6 (Pipeline.mem_restRefs_of main_arg6 (by decide) (by decide))).trans (V_main_arg6 m c)⟩)
    (Tile.run_main m ρ)

end Cert.KernelIdeal.ArrayValue

end
-- ==== Proof.LibScatterSet.lean ====
/-
  A host scatter that SETS (its body returns the update) read at an index, when updates may repeat an index.

  The scatter is a left fold over the updates in row-major order: each update whose index lies inside the
  operand replaces the element there. If every update that lands on element i carries the same value v, the
  order of the fold cannot be seen at i: the element ends at v when some update lands on it, and keeps the
  operand's value when none does.
-/
import Idealize.ShloMosaic.PureOps.ShapeOps

namespace Idealize.ShloMosaic

namespace ScatterSet

variable {α : Type} {s si u : Shape} {w : Nat}

/-- One update of a setting scatter: update n replaces the element its index names, if it names one. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

open Classical in
/-- The fold over any list of updates, at an element on which all of the list's updates that land agree. -/
theorem foldl_step_apply (d : ScatterDims s si u) (idx : IVec si w) (upd : u.Idx → α) (i : s.Idx) (v : α) :
    ∀ (l : List (Fin u.numel)) (r : s.Idx → α),
      (∀ n ∈ l, d.resultIdx? (u.rowMajor.symm n) idx = some i → upd (u.rowMajor.symm n) = v) →
      l.foldl (step d idx upd) r i
        = if ∃ n ∈ l, d.resultIdx? (u.rowMajor.symm n) idx = some i then v else r i := by
  intro l
  induction l with
  | nil => intro r _; simp
  | cons a l ih =>
    intro r h
    rw [List.foldl_cons, ih (step d idx upd r a) fun n hn => h n (List.mem_cons_of_mem _ hn)]
    by_cases hl : ∃ n ∈ l, d.resultIdx? (u.rowMajor.symm n) idx = some i
    · obtain ⟨n, hn, he⟩ := hl
      rw [if_pos ⟨n, hn, he⟩, if_pos ⟨n, List.mem_cons_of_mem _ hn, he⟩]
    · rw [if_neg hl]
      unfold step
      cases ha : d.resultIdx? (u.rowMajor.symm a) idx with
      | none =>
        have : ¬ ∃ n ∈ a :: l, d.resultIdx? (u.rowMajor.symm n) idx = some i := by
          rintro ⟨n, hn, he⟩
          rcases List.mem_cons.mp hn with rfl | hn
          · rw [ha] at he; cases he
          · exact hl ⟨n, hn, he⟩
        dsimp only
        rw [if_neg this]
      | some i₂ =>
        by_cases hi : i = i₂
        · subst hi
          dsimp only
          rw [if_pos rfl, if_pos ⟨a, List.mem_cons_self, ha⟩]
          exact h a List.mem_cons_self ha
        · have : ¬ ∃ n ∈ a :: l, d.resultIdx? (u.rowMajor.symm n) idx = some i := by
            rintro ⟨n, hn, he⟩
            rcases List.mem_cons.mp hn with rfl | hn
            · rw [ha] at he; exact hi (Option.some.inj he).symm
            · exact hl ⟨n, hn, he⟩
          dsimp only
          rw [if_neg hi, if_neg this]

/-- Some update lands on element i, and every update that does carries v: the scatter holds v there. -/
theorem scatter_set_of_hit (d : ScatterDims s si u) (x : s.Idx → α) (idx : IVec si w) (upd : u.Idx → α) (i : s.Idx) (v : α)
    (j₀ : u.Idx) (h₀ : d.resultIdx? j₀ idx = some i) (h : ∀ j, d.resultIdx? j idx = some i → upd j = v) :
    Host.scatter d (fun _ b => b) x idx upd i = v := by
  rw [scatter_eq_foldl, foldl_step_apply d idx upd i v _ x fun n _ hn => h _ hn, if_pos]
  exact ⟨u.rowMajor j₀, List.mem_finRange _, by rw [Equiv.symm_apply_apply]; exact h₀⟩

/-- No update lands on element i: the scatter keeps the operand's value there. -/
theorem scatter_set_of_no_hit (d : ScatterDims s si u) (x : s.Idx → α) (idx : IVec si w) (upd : u.Idx → α) (i : s.Idx)
    (h : ∀ j, d.resultIdx? j idx ≠ some i) :
    Host.scatter d (fun _ b => b) x idx upd i = x i := by
  rw [scatter_eq_foldl, foldl_step_apply d idx upd i (x i) _ x fun n _ hn => absurd hn (h _), if_neg]
  rintro ⟨n, _, hn⟩
  exact h _ hn

end ScatterSet

end Idealize.ShloMosaic
-- ==== Proof.RefValue.lean ====
/-
  The reference's result, as the same function of its arguments.

  The reference slices the first 600000 rows of the features, projects the ratios, concatenates the two
  600000 x 128 arrays side by side, multiplies by the whole weight matrix, adds the bias, takes the logistic
  spelled out as `1 / (1 + exp (-z))`, mixes, and writes the 600000 fused rows over rows 0..599999 of the
  features by one scatter whose single start index is 0.

  Read at a row `r < 600000` and a column `q`: the product's sum over 256 indices splits into the sum over the
  slice's columns and the sum over the projection's (`GateSpec.sum_halves`), which is the kernel's sum of two
  products; the spelled-out logistic is the logistic (`GateSpec.logistic_expanded`). The scatter's update
  `(r, q)` lands on element `(r, q)` and nowhere else, so elements of rows below 600000 take their update and
  the others keep the features.
-/
import proofs.«154325_j42709154792034_2_alg».proof.Proof.Gen.ReferenceIdeal.Read
import proofs.«154325_j42709154792034_2_alg».proof.Proof.GateSpec
import proofs.«154325_j42709154792034_2_alg».proof.Proof.LibScatterSet

noncomputable section

namespace Cert.ReferenceIdeal.RefValue

open Cert.ReferenceIdeal Cert.ReferenceIdeal.Gen Cert.ReferenceIdeal.Read
open Idealize.ShloMosaic Idealize.ShloMosaic.ValueIdx

variable (x0 : S1000000x128.Idx → EReal) (x1 : S600000.Idx → EReal) (x2 : S1x128.Idx → EReal) (x3 : S128.Idx → EReal)
  (x4 : S256x128.Idx → EReal) (x5 : S128.Idx → EReal)

/-- The row and the column of an index of the 600000 x 128 arrays. -/
abbrev rowOf (j : S600000x128.Idx) : Fin 600000 := ⟨(j 0).val, (j 0).isLt⟩
abbrev colOf (j : S600000x128.Idx) : Fin 128 := ⟨(j 1).val, (j 1).isLt⟩

/-! ## The projected ratios -/

theorem ref_feat (j : S600000x128.Idx) :
    val_main_v9 (F := Ideal) x1 x2 x3 j
      = GateSpec.feat (x1 (ix1 (rowOf j))) (fun k => x2 (ix2 (0 : Fin 1) k)) (fun k => x3 (ix1 k)) (colOf j) := by
  have e1 : idx_main_v1 (idx_main_v4 j) = ix1 (rowOf j) := funext fun a => Fin.ext (by match a with | ⟨0, _⟩ => rfl)
  have e2 : idx_main_v2 (idx_main_v3 (idx_main_v5 j)) = ix2 (0 : Fin 1) (colOf j) := funext fun a => Fin.ext (by
    match a with
    | ⟨0, _⟩ => rfl
    | ⟨1, _⟩ => exact Nat.mod_eq_of_lt (j 1).isLt)
  have e3 : idx_main_v7 (idx_main_v8 j) = ix1 (colOf j) := funext fun a => Fin.ext (by match a with | ⟨0, _⟩ => rfl)
  rw [val_main_v9_apply, val_main_v6_apply, val_main_v4_apply, val_main_v1_apply, val_main_v5_apply, val_main_v3_apply,
    val_main_v2_apply, val_main_v8_apply, val_main_v7_apply, e1, e2, e3]
  rfl

/-! ## The concatenated row -/

/-- Columns 0..127 of the concatenation are the features' slice. -/
theorem ref_concat_left (j : S600000x128.Idx) (k : Fin 128) :
    val_main_v10 (F := Ideal) x0 x1 x2 x3 (lidx_main_v11 j ⟨k.val, Nat.lt_trans k.isLt (by decide)⟩)
      = x0 (ix2 (⟨(j 0).val, Nat.lt_trans (show (j 0).val < 600000 from (j 0).isLt) (by decide)⟩ : Fin 1000000) k) := by
  unfold val_main_v10
  refine (concatenate_pair_apply_left (t := S600000x256) (s₁ := S600000x128) (s₂ := S600000x128) (1 : Fin 2)
    (val_main_v0 (F := Ideal) x0) (val_main_v9 (F := Ideal) x1 x2 x3) concatenates_S600000x128_S600000x128_S600000x256_d1
    (lidx_main_v11 j ⟨k.val, Nat.lt_trans k.isLt (by decide)⟩) rfl (ix2 (rowOf j) k)
    (fun b => by match b with | ⟨0, _⟩ => rfl | ⟨1, _⟩ => rfl)).trans ?_
  rw [val_main_v0_apply]
  exact congrArg x0 (funext fun a => Fin.ext (by match a with | ⟨0, _⟩ => rfl | ⟨1, _⟩ => rfl))

/-- Columns 128..255 are the projected ratios. -/
theorem ref_concat_right (j : S600000x128.Idx) (k : Fin 128) :
    val_main_v10 (F := Ideal) x0 x1 x2 x3 (lidx_main_v11 j ⟨128 + k.val, Nat.add_lt_add_left k.isLt 128⟩)
      = GateSpec.feat (x1 (ix1 (rowOf j))) (fun k => x2 (ix2 (0 : Fin 1) k)) (fun k => x3 (ix1 k)) k := by
  unfold val_main_v10
  refine (concatenate_pair_apply_right (t := S600000x256) (s₁ := S600000x128) (s₂ := S600000x128) (1 : Fin 2)
    (val_main_v0 (F := Ideal) x0) (val_main_v9 (F := Ideal) x1 x2 x3) concatenates_S600000x128_S600000x128_S600000x256_d1
    (lidx_main_v11 j ⟨128 + k.val, Nat.add_lt_add_left k.isLt 128⟩) rfl rfl (ix2 (rowOf j) k)
    (fun b hb => by match b with | ⟨0, _⟩ => rfl | ⟨1, _⟩ => exact absurd rfl hb)
    (by show k.val + 128 = 128 + k.val; omega)).trans ?_
  rw [ref_feat]

/-! ## The logit, the gate and the fused row -/

theorem ref_logit (j : S600000x128.Idx) :
    val_main_v14 (F := Ideal) x0 x1 x2 x3 x4 x5 j
      = GateSpec.logit (fun k => x0 (ix2 (⟨(j 0).val, Nat.lt_trans (show (j 0).val < 600000 from (j 0).isLt) (by decide)⟩ : Fin 1000000) k))
          (GateSpec.feat (x1 (ix1 (rowOf j))) (fun k => x2 (ix2 (0 : Fin 1) k)) (fun k => x3 (ix1 k)))
          (fun k => x4 (ix2 (⟨k.val, Nat.lt_trans k.isLt (by decide)⟩ : Fin 256) (colOf j)))
          (fun k => x4 (ix2 (⟨128 + k.val, Nat.add_lt_add_left k.isLt 128⟩ : Fin 256) (colOf j)))
          (x5 (ix1 (colOf j))) := by
  have e5 : idx_main_v12 (idx_main_v13 j) = ix1 (colOf j) := funext fun a => Fin.ext (by match a with | ⟨0, _⟩ => rfl)
  rw [val_main_v14_apply, val_main_v11_apply, val_main_v13_apply, val_main_v12_apply, e5, GateSpec.sum_halves]
  unfold GateSpec.logit
  refine congrArg (· + x5 (ix1 (colOf j))) (congrArg₂ (· + ·) (Finset.sum_congr rfl fun k _ => ?_) (Finset.sum_congr rfl fun k _ => ?_))
  · rw [ref_concat_left]
    exact congrArg (_ * x4 ·) (funext fun a => Fin.ext (by match a with | ⟨0, _⟩ => rfl | ⟨1, _⟩ => rfl))
  · rw [ref_concat_right]
    exact congrArg (_ * x4 ·) (funext fun a => Fin.ext (by match a with | ⟨0, _⟩ => rfl | ⟨1, _⟩ => rfl))

/-- The update the scatter carries at `(r, q)` is the fused entry of row `r`, column `q`. -/
theorem ref_update (j : S600000x128.Idx) :
    val_main_v25 (F := Ideal) x0 x1 x2 x3 x4 x5 j
      = GateSpec.fused (fun k => x0 (ix2 (⟨(j 0).val, Nat.lt_trans (show (j 0).val < 600000 from (j 0).isLt) (by decide)⟩ : Fin 1000000) k)) (x1 (ix1 (rowOf j)))
          (fun k => x2 (ix2 (0 : Fin 1) k)) (fun k => x3 (ix1 k))
          (fun k => x4 (ix2 (⟨k.val, Nat.lt_trans k.isLt (by decide)⟩ : Fin 256) (colOf j)))
          (fun k => x4 (ix2 (⟨128 + k.val, Nat.add_lt_add_left k.isLt 128⟩ : Fin 256) (colOf j)))
          (x5 (ix1 (colOf j))) (colOf j) := by
  rw [val_main_v25_apply, val_main_v21_apply, val_main_v24_apply, val_main_v23_apply, val_main_v22_apply, val_main_cst_1_apply,
    val_main_v20_apply, val_main_v19_apply, val_main_cst_0_apply, val_main_v18_apply, val_main_v17_apply, val_main_cst_apply,
    val_main_v16_apply, val_main_v15_apply, val_main_v0_apply]
  simp only [Ideal.addf_def, Ideal.mulf_def, Ideal.subf_def, Ideal.hostDivf_def, Ideal.hostUnary_exp_def, Ideal.hostNegf_def,
    Ideal.negf_def, Ideal.ofBits_def]
  rw [GateSpec.logistic_expanded, ref_logit, ref_feat]
  unfold GateSpec.fused GateSpec.mix
  exact congrArg (_ + _ * x0 ·) (funext fun a => Fin.ext (by match a with | ⟨0, _⟩ => rfl | ⟨1, _⟩ => rfl))

/-! ## The scatter -/

/-- The scatter's one start index is the word 0. -/
theorem start_word (k : S1.Idx) : val_main_v26 (F := Ideal) k = 0#32 := rfl

/-- Update `(r, q)` lands on element `(r, q)`. -/
theorem lands (j : S600000x128.Idx) :
    scatter_S1000000x128_S1_S600000x128_01_n_0_0.resultIdx? j (val_main_v26 (F := Ideal)) = some (idx_main_v0 j) := by
  have hj0 : (j 0).val < 600000 := (j 0).isLt
  have hj1 : (j 1).val < 128 := (j 1).isLt
  -- the start is the word 0 on the scattered axis and 0 on the other; the window coordinate is the update's own
  have s0 : scatter_S1000000x128_S1_S600000x128_01_n_0_0.start j (val_main_v26 (F := Ideal)) (0 : Fin 2) = 0 := by
    unfold ScatterDims.start; rw [dif_pos (by decide)]; rfl
  have s1 : scatter_S1000000x128_S1_S600000x128_01_n_0_0.start j (val_main_v26 (F := Ideal)) (1 : Fin 2) = 0 := by
    unfold ScatterDims.start; rw [dif_neg (by decide)]
  have w0 : scatter_S1000000x128_S1_S600000x128_01_n_0_0.window j (0 : Fin 2) = (j 0).val := by
    unfold ScatterDims.window; rw [dif_pos (by decide)]; rfl
  have w1 : scatter_S1000000x128_S1_S600000x128_01_n_0_0.window j (1 : Fin 2) = (j 1).val := by
    unfold ScatterDims.window; rw [dif_pos (by decide)]; rfl
  have key : ∀ a : Fin 2, scatter_S1000000x128_S1_S600000x128_01_n_0_0.start j (val_main_v26 (F := Ideal)) a + (scatter_S1000000x128_S1_S600000x128_01_n_0_0.window j a : Int) = ((j a).val : Int) := fun a => by
    match a with
    | ⟨0, _⟩ => exact (by rw [s0, w0]; simp : scatter_S1000000x128_S1_S600000x128_01_n_0_0.start j (val_main_v26 (F := Ideal)) (0 : Fin 2) + (scatter_S1000000x128_S1_S600000x128_01_n_0_0.window j (0 : Fin 2) : Int) = ((j 0).val : Int))
    | ⟨1, _⟩ => exact (by rw [s1, w1]; simp : scatter_S1000000x128_S1_S600000x128_01_n_0_0.start j (val_main_v26 (F := Ideal)) (1 : Fin 2) + (scatter_S1000000x128_S1_S600000x128_01_n_0_0.window j (1 : Fin 2) : Int) = ((j 1).val : Int))
  unfold ScatterDims.resultIdx?
  rw [dif_pos (fun a => by
    rw [key a]
    match a with
    | ⟨0, _⟩ => show (0 : Int) ≤ ((j 0).val : Int) ∧ ((j 0).val : Int) < ((1000000 : Nat) : Int); omega
    | ⟨1, _⟩ => show (0 : Int) ≤ ((j 1).val : Int) ∧ ((j 1).val : Int) < ((128 : Nat) : Int); omega)]
  refine congrArg some (funext fun a => Fin.ext ?_)
  rw [Fin.val_mk, key a, Int.toNat_natCast]
  match a with
  | ⟨0, _⟩ => rfl
  | ⟨1, _⟩ => rfl

/-- The reference's result is the fused array of its arguments. -/
theorem result_eq : val_main_v27 (F := Ideal) x0 x1 x2 x3 x4 x5 = GateSpec.fusedArray x0 x1 x2 x3 x4 x5 := by
  funext i
  unfold val_main_v27 GateSpec.fusedArray
  by_cases h : (i 0).val < 600000
  · rw [dif_pos h]
    let j₀ : S600000x128.Idx := ix2 (⟨(i 0).val, h⟩ : Fin 600000) (⟨(i 1).val, (i 1).isLt⟩ : Fin 128)
    have hj₀ : idx_main_v0 j₀ = i := funext fun a => Fin.ext (by match a with | ⟨0, _⟩ => rfl | ⟨1, _⟩ => rfl)
    rw [ScatterSet.scatter_set_of_hit _ x0 _ _ i (val_main_v25 (F := Ideal) x0 x1 x2 x3 x4 x5 j₀) j₀ ((lands j₀).trans (congrArg some hj₀))
      (fun j hj => by
        have e : idx_main_v0 j = i := Option.some.inj ((lands j).symm.trans hj)
        have : j = j₀ := funext fun a => Fin.ext (by
          match a with
          | ⟨0, _⟩ => exact congrArg (fun v : S1000000x128.Idx => (v 0).val) e
          | ⟨1, _⟩ => exact congrArg (fun v : S1000000x128.Idx => (v 1).val) e)
        rw [this]), ref_update]
  · rw [dif_neg h]
    exact ScatterSet.scatter_set_of_no_hit _ x0 _ _ i fun j hj => by
      have e : idx_main_v0 j = i := Option.some.inj ((lands j).symm.trans hj)
      have : (j 0).val = (i 0).val := congrArg (fun v : S1000000x128.Idx => (v 0).val) e
      have hj0 : (j 0).val < 600000 := (j 0).isLt
      omega

end Cert.ReferenceIdeal.RefValue

end
-- ==== Proof.lean ====
/-
  A fused gate over the variable nodes of a graph: kernel against reference, on the extended reals.

  Both programs take 1000000 node rows of 128 features, 600000 log-likelihood ratios and the parameters of two
  linear maps, and return the node rows with the first 600000 replaced: row `r` becomes the gate's convex
  combination of the ratio's projection `L = l_r * wl + bl` and the row's own features `x`, the gate being the
  logistic of `(x, L)` times a 256 x 128 weight matrix plus a bias. Rows from 600000 on are returned unchanged.

  The kernel does this over 100 tiles of 6000 rows, multiplying `x` by the matrix's top half and `L` by its bottom
  half; the reference concatenates `x` and `L` and multiplies once. On the extended reals a narrowing of the float
  format is the identity, a matrix product is its plain sum, and a sum over 256 indices is the sum of its two halves,
  so both results are one function of the arguments, `GateSpec.fusedArray`: the kernel's by `ArrayValue.run`,
  the reference's by `RefValue.result_eq`. No finiteness of the inputs is used: only that addition of extended
  reals is commutative and associative, and that the float 1.0 denotes 1.

  The frames: each kernel's run terminates and leaves its arguments as they were (`Tile.frame`, the same text at
  both readings of the floats); the reference's is its run with the result dropped. The idealized kernel is the
  kernel's own text, so there is nothing to preserve.
-/
import proofs.«154325_j42709154792034_2_alg».proof.Defs
import proofs.«154325_j42709154792034_2_alg».proof.Proof.Gen.Kernel
import proofs.«154325_j42709154792034_2_alg».proof.Proof.Gen.KernelIdeal
import proofs.«154325_j42709154792034_2_alg».proof.Proof.Gen.ReferenceIdeal
import proofs.«154325_j42709154792034_2_alg».proof.Proof.Gen.Pre_finite_inputs
import proofs.«154325_j42709154792034_2_alg».proof.Proof.Gen.ReferenceIdeal.Run
import proofs.«154325_j42709154792034_2_alg».proof.Proof.Gen.ReferenceIdeal.Read
import proofs.«154325_j42709154792034_2_alg».proof.Proof.TileBits
import proofs.«154325_j42709154792034_2_alg».proof.Proof.KernelArray
import proofs.«154325_j42709154792034_2_alg».proof.Proof.RefValue

noncomputable section

namespace Cert.Proof

open Idealize.ShloMosaic Idealize.SL.Sem

theorem frame_kernel : Cert.frame_Kernel := fun m ρ _ => Cert.Kernel.Tile.frame m ρ

theorem frame_ideal : Cert.frame_KernelIdeal := fun m ρ _ => Cert.KernelIdeal.Tile.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, both runs end with the fused array of those arguments. -/
theorem algebraic : Cert.algebraic_KernelIdeal_ReferenceIdeal := by
  intro m ρ m' ρ' _ hagree
  refine ⟨fun c => GateSpec.fusedArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.ArrayValue.run m ρ, ?_⟩
  refine (θ_run Cert.ReferenceIdeal.defs _ _).mono (fun _ h c => ⟨(h c).1.trans ?_, (h c).2⟩) (Cert.ReferenceIdeal.Value.run (F := Ideal) m' ρ')
  refine (Cert.ReferenceIdeal.Read.val_main_v27_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))).trans ?_
  refine (Cert.ReferenceIdeal.RefValue.result_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))).trans ?_
  rw [(hagree c).1, (hagree c).2.1, (hagree c).2.2.1, (hagree c).2.2.2.1, (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
